-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S11008x4096 : Shape := ⟨2, ![11008, 4096]⟩
abbrev S11008 : Shape := ⟨1, ![11008]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S11008x4096 : S_.BroadcastsInDim S11008x4096 (![] : Fin 0 → Fin S11008x4096.rank)
  reducesTo_S11008x4096_S_d0_1 : S11008x4096.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S8192x4096 .f32) (main_arg1 : FVec F S11008x4096 .f32) (main_arg2 : FVec F S11008 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S11008x4096 .f32 := Host.absf main_arg1
  let main_cst_0 : FVec F S_ .f32 := constant S_ .f32 0x7F800000#32
  let main_v5 : FVec F S11008x4096 .f32 := broadcastInDim S11008x4096 ![] bcast_S_S11008x4096 main_cst_0
  let main_v6 : IVec S11008x4096 1 := cmpf .olt main_v4 main_v5
  let main_c_1 : IVec S_ 1 := constantI S_ 1 1#1
  let main_v7 : IVec S_ 1 := (fun x v => Host.reduce IntOp.andi x v reducesTo_S11008x4096_S_d0_1 h_S_) main_v6 main_c_1
  let main_v8 : IVec S_ 1 := andi main_v3 main_v7
  let main_v9 : FVec F S11008 .f32 := Host.absf main_arg2
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S8192x4096 : Shape := ⟨2, ![8192, 4096]⟩
abbrev S11008x4096 : Shape := ⟨2, ![11008, 4096]⟩
abbrev S11008 : Shape := ⟨1, ![11008]⟩
abbrev S1x11008 : Shape := ⟨2, ![1, 11008]⟩
abbrev S8192x11008 : Shape := ⟨2, ![8192, 11008]⟩
abbrev S512x512 : Shape := ⟨2, ![512, 512]⟩
abbrev S5504x512 : Shape := ⟨2, ![5504, 512]⟩
abbrev S1x5504 : Shape := ⟨2, ![1, 5504]⟩
abbrev S512x5504 : Shape := ⟨2, ![512, 5504]⟩

abbrev nBuf : Space → Nat
  | .hbm => 8
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S8192x4096, .bf16⟩
  | .hbm, ⟨4, _⟩ => ⟨S11008x4096, .f32⟩
  | .hbm, ⟨5, _⟩ => ⟨S11008x4096, .bf16⟩
  | .hbm, ⟨6, _⟩ => ⟨S1x11008, .f32⟩
  | .hbm, ⟨7, _⟩ => ⟨S8192x11008, .f32⟩
  | .local _ .vmem, ⟨0, _⟩ => ⟨S512x512, .bf16⟩
  | .local _ .vmem, ⟨1, _⟩ => ⟨S512x512, .bf16⟩
  | .local _ .vmem, ⟨2, _⟩ => ⟨S5504x512, .bf16⟩
  | .local _ .vmem, ⟨3, _⟩ => ⟨S5504x512, .bf16⟩
  | .local _ .vmem, ⟨4, _⟩ => ⟨S1x5504, .f32⟩
  | .local _ .vmem, ⟨5, _⟩ => ⟨S1x5504, .f32⟩
  | .local _ .vmem, ⟨6, _⟩ => ⟨S512x5504, .f32⟩
  | .local _ .vmem, ⟨7, _⟩ => ⟨S512x5504, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 2, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S5504x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x5504 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S512x5504 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  shapeCasts_S11008_S1x11008 : S11008.ShapeCasts S1x11008
  inb_S1x5504_S1x5504_0_0 : ∀ a, (![0, 0] : Fin 2 → Nat) a + S1x5504.size a ≤ S1x5504.size a
  h_S1x5504 : 0 < S1x5504.numel
  shapeCasts_S1x5504_S1x5504 : S1x5504.ShapeCasts S1x5504
  broadcasts_S1x5504_S512x5504 : S1x5504.Broadcasts S512x5504
  inb_S512x5504_S512x5504_0_0 : ∀ a, (![0, 0] : Fin 2 → Nat) a + S512x5504.size a ≤ S512x5504.size a
  h_S512x5504 : 0 < S512x5504.numel
  shapeCasts_S512x5504_S512x5504 : S512x5504.ShapeCasts S512x5504
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S5504x512_S5504x512_0_0 : ∀ a, (![0, 0] : Fin 2 → Nat) a + S5504x512.size a ≤ S5504x512.size a
  h_S5504x512 : 0 < S5504x512.numel
  shapeCasts_S5504x512_S5504x512 : S5504x512.ShapeCasts S5504x512
  dot_S512x512_S5504x512_S512x5504_1_1_0_0_n_n_wf : DotDims.WF S512x512 S5504x512 S512x5504 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x4096.size a
  hwx0_0 : ∀ i : grid0.Coords, EltTy.bits .bf16 = 32 ∨ (Rect.block (s := S8192x4096) S512x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5504x512.size a ≤ S11008x4096.size a
  hwx0_1 : ∀ i : grid0.Coords, EltTy.bits .bf16 = 32 ∨ (Rect.block (s := S11008x4096) S5504x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x5504.size a ≤ S1x11008.size a
  hwx0_2 : ∀ i : grid0.Coords, EltTy.bits .f32 = 32 ∨ (Rect.block (s := S1x11008) S1x5504.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x5504.size a ≤ S8192x11008.size a
  hwx0_3 : ∀ i : grid0.Coords, EltTy.bits .f32 = 32 ∨ (Rect.block (s := S8192x11008) S512x5504.size (cc0_transform_3 i) (hinb0_3 i)).WholeWords (EltTy.packing .f32)

variable [Facts₀]

def dot_S512x512_S5504x512_S512x5504_1_1_0_0_n_n : DotDims S512x512 S5504x512 S512x5504 where
  lhsContracting := [1]
  rhsContracting := [1]
  lhsNonContracting := [0]
  rhsNonContracting := [0]
  lhsBatch := []
  rhsBatch := []
  wf := dot_S512x512_S5504x512_S512x5504_1_1_0_0_n_n_wf

abbrev win0_0 : Pipeline.Window sig grid0 :=
  Pipeline.Window.ofSpec (Memref.whole main_v0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S5504x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x5504.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x5504.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S11008x4096 : Shape := ⟨2, ![11008, 4096]⟩
abbrev S11008 : Shape := ⟨1, ![11008]⟩
abbrev S4096x11008 : Shape := ⟨2, ![4096, 11008]⟩
abbrev S8192x11008 : Shape := ⟨2, ![8192, 11008]⟩
abbrev S1x11008 : Shape := ⟨2, ![1, 11008]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S11008x4096, .f32⟩
  | .hbm, ⟨2, _⟩ => ⟨S11008, .f32⟩
  | .hbm, ⟨3, _⟩ => ⟨S11008x4096, .f32⟩
  | .hbm, ⟨4, _⟩ => ⟨S4096x11008, .f32⟩
  | .hbm, ⟨5, _⟩ => ⟨S8192x11008, .f32⟩
  | .hbm, ⟨6, _⟩ => ⟨S1x11008, .f32⟩
  | .hbm, ⟨7, _⟩ => ⟨S8192x11008, .f32⟩
  | .hbm, ⟨8, _⟩ => ⟨S8192x11008, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]

class Facts₀ : Prop where
  transposes_S11008x4096_S4096x11008_1_0 : S11008x4096.Transposes [1, 0] S4096x11008
  bcast_S11008_S1x11008_1 : S11008.BroadcastsInDim S1x11008 (![1] : Fin 1 → Fin S1x11008.rank)
  bcast_S1x11008_S8192x11008_0_1 : S1x11008.BroadcastsInDim S8192x11008 (![0, 1] : Fin 2 → Fin S8192x11008.rank)
  dot_S8192x4096_S4096x11008_S8192x11008_1_0_0_1_n_n_wf : DotDims.WF S8192x4096 S4096x11008 S8192x11008 [1] [0] [0] [1] [] []

variable [Facts₀]

def dot_S8192x4096_S4096x11008_S8192x11008_1_0_0_1_n_n : DotDims S8192x4096 S4096x11008 S8192x11008 where
  lhsContracting := [1]
  rhsContracting := [0]
  lhsNonContracting := [0]
  rhsNonContracting := [1]
  lhsBatch := []
  rhsBatch := []
  wf := dot_S8192x4096_S4096x11008_S8192x11008_1_0_0_1_n_n_wf

class Facts : Prop extends Facts₀ where

variable [Facts]
-- ==== Proof.KernelBlocks.lean ====
/-
  The kernel side, one grid point at a time. The grid is 16 row blocks × 2 column blocks × 8 contraction blocks,
  point `t` standing for `(t / 16, t / 8 % 2, t % 8)`. Point `t` stages rows `512 * (t / 16) …` and columns
  `512 * (t % 8) …` of x, rows `5504 * (t / 8 % 2) …` and the same columns of the ternarized weight, and entries
  `5504 * (t / 8 % 2) …` of the bias laid as a row. At the ideal values rounding to bf16 is the identity, so the
  staged arrays are x itself, the sign of the weight, and the bias. The body stores, at the first point of a run,
  the bias row under every row; then at every point it adds the product of the x block with the weight block
  (contracting the weight's second axis): entry `(p, q)` gains `∑ k, x p k * w q k`.
-/
import proofs.«147107_j87247965651268_2_alg».proof.Proof.Gen.KernelIdeal.Value
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

open Idealize.ShloMosaic Idealize.ShloMosaic.TcCoe Idealize.SL.Sem Idealize.ShloMosaic.ValueIdx
open scoped BigOperators

namespace Cert.KernelIdeal.Linear

open Cert.KernelIdeal Cert.KernelIdeal.Gen

/-! ## Which block of each operand a grid point stages -/

theorem idx_x : ∀ t : Fin cfg0.N, win0_0.index t (0 : Fin 2) = t.val / 16 ∧ win0_0.index t (1 : Fin 2) = t.val % 8 :=
  (by decide +kernel : ∀ t : Fin grid0.N, _)

theorem idx_w : ∀ t : Fin cfg0.N, win0_1.index t (0 : Fin 2) = t.val / 8 % 2 ∧ win0_1.index t (1 : Fin 2) = t.val % 8 :=
  (by decide +kernel : ∀ t : Fin grid0.N, _)

theorem idx_b : ∀ t : Fin cfg0.N, win0_2.index t (0 : Fin 2) = 0 ∧ win0_2.index t (1 : Fin 2) = t.val / 8 % 2 :=
  (by decide +kernel : ∀ t : Fin grid0.N, _)

variable (m : (ℓ : Loc nD τ sig) → Buf (Elt Ideal) ℓ)

/-! ## The arrays the region finds -/

theorem V_x (c : Dev nD) : (V m c main_v0 : S8192x4096.Idx → EReal) = m ((c : Thread nD τ).loc main_arg0) := by
  dsimp only [V, hostOps0]; after_results; rfl

theorem V_w (c : Dev nD) : (V m c main_v2 : S11008x4096.Idx → EReal) = Host.sign (F := Ideal) (φ := .f32) (m ((c : Thread nD τ).loc main_arg1)) := by
  dsimp only [V, hostOps0]; after_results; rfl

theorem V_b (c : Dev nD) : (V m c main_v3 : S1x11008.Idx → EReal) = shapeCast S1x11008 (m ((c : Thread nD τ).loc main_arg2)) shapeCasts_S11008_S1x11008 := by
  dsimp only [V, hostOps0]; after_results; rfl

/-! ## A block read at an entry -/

/-- The x block of point `t` holds rows `512 * (t / 16) …` and columns `512 * (t % 8) …` of x. -/
theorem xblk_apply (c : Dev nD) (t : Fin cfg0.N) (y : S512x512.Idx) (i : S8192x4096.Idx)
    (h0 : (i 0).val = 512 * (t.val / 16) + (y 0).val) (h1 : (i 1).val = 512 * (t.val % 8) + (y 1).val) :
    (iblk m c 0 t : Vec Ideal S512x512 .bf16) y = m ((c : Thread nD τ).loc main_arg0) i := by
  obtain ⟨e0, e1⟩ := idx_x t
  unfold iblk
  rw [View.read_apply]
  show V m c main_v0 (((cfg0.win 0).blk t).view.emb y) = _
  rw [V_x]
  refine congrArg _ (funext fun a => Fin.ext ?_)
  match a with
  | ⟨0, _⟩ => show win0_0.index t (0 : Fin 2) * 512 + 1 * (y 0).val = (i 0).val; rw [e0, h0]; omega
  | ⟨1, _⟩ => show win0_0.index t (1 : Fin 2) * 512 + 1 * (y 1).val = (i 1).val; rw [e1, h1]; omega

/-- The weight block of point `t` holds rows `5504 * (t / 8 % 2) …` and columns `512 * (t % 8) …` of the ternarized weight. -/
theorem wblk_apply (c : Dev nD) (t : Fin cfg0.N) (y : S5504x512.Idx) (i : S11008x4096.Idx)
    (h0 : (i 0).val = 5504 * (t.val / 8 % 2) + (y 0).val) (h1 : (i 1).val = 512 * (t.val % 8) + (y 1).val) :
    (iblk m c 1 t : Vec Ideal S5504x512 .bf16) y = Ideal.sign (m ((c : Thread nD τ).loc main_arg1) i) := by
  obtain ⟨e0, e1⟩ := idx_w t
  unfold iblk
  rw [View.read_apply]
  show V m c main_v2 (((cfg0.win 1).blk t).view.emb y) = _
  rw [V_w]
  show Ideal.sign (m ((c : Thread nD τ).loc main_arg1) _) = _
  refine congrArg (fun j => Ideal.sign (m ((c : Thread nD τ).loc main_arg1) j)) (funext fun a => Fin.ext ?_)
  match a with
  | ⟨0, _⟩ => show win0_1.index t (0 : Fin 2) * 5504 + 1 * (y 0).val = (i 0).val; rw [e0, h0]; omega
  | ⟨1, _⟩ => show win0_1.index t (1 : Fin 2) * 512 + 1 * (y 1).val = (i 1).val; rw [e1, h1]; omega

/-- The bias block of point `t` holds entries `5504 * (t / 8 % 2) …` of the bias, laid as a row. -/
theorem bblk_apply (c : Dev nD) (t : Fin cfg0.N) (q : Fin 5504) (j : Fin 11008)
    (h1 : j.val = 5504 * (t.val / 8 % 2) + q.val) :
    (iblk m c 2 t : Vec Ideal S1x5504 .f32) (ix2 (0 : Fin 1) q) = m ((c : Thread nD τ).loc main_arg2) (ix1 j) := by
  obtain ⟨e0, e1⟩ := idx_b t
  unfold iblk
  rw [View.read_apply]
  show V m c main_v3 (((cfg0.win 2).blk t).view.emb (ix2 (0 : Fin 1) q)) = _
  rw [V_b]
  refine (congrArg _ (funext fun a => Fin.ext ?_)).trans (shapeCast_a_1a_apply (m ((c : Thread nD τ).loc main_arg2)) shapeCasts_S11008_S1x11008 (0 : Fin 1) j)
  match a with
  | ⟨0, _⟩ => show win0_2.index t (0 : Fin 2) * 1 + 1 * 0 = 0; rw [e0]
  | ⟨1, _⟩ => show win0_2.index t (1 : Fin 2) * 5504 + 1 * q.val = j.val; rw [e1, h1]; omega

/-! ## The body's two stored values at an entry -/

/-- The first point of a run stores the bias row under every row of the block. -/
theorem pay1_apply (b : FVec Ideal S1x5504 .f32) (p : Fin 512) (q : Fin 5504) :
    k0_pay1 (F := Ideal) b (ix2 p q) = b (ix2 (0 : Fin 1) q) := by
  unfold k0_pay1
  simp only [shapeCast_self]
  exact broadcastTo_1b_ab_apply b broadcasts_S1x5504_S512x5504 p q

theorem lhs0 (i : S512x5504.Idx) (k : dot_S512x512_S5504x512_S512x5504_1_1_0_0_n_n.contr.Idx) :
    (dot_S512x512_S5504x512_S512x5504_1_1_0_0_n_n.lhsIdx i k 0).val = (i 0).val := by
  unfold DotDims.lhsIdx
  rw [dif_neg (show ¬(0 : Fin S512x512.rank) ∈ dot_S512x512_S5504x512_S512x5504_1_1_0_0_n_n.lhsBatch by decide), dif_pos (show (0 : Fin S512x512.rank) ∈ dot_S512x512_S5504x512_S512x5504_1_1_0_0_n_n.lhsNonContracting by decide)]
  rfl
theorem lhs1 (i : S512x5504.Idx) (k : dot_S512x512_S5504x512_S512x5504_1_1_0_0_n_n.contr.Idx) :
    (dot_S512x512_S5504x512_S512x5504_1_1_0_0_n_n.lhsIdx i k 1).val = (k ⟨0, by decide⟩).val :=
  dot_S512x512_S5504x512_S512x5504_1_1_0_0_n_n.lhsIdx_val_of_single rfl i k
theorem rhs0 (i : S512x5504.Idx) (k : dot_S512x512_S5504x512_S512x5504_1_1_0_0_n_n.contr.Idx) :
    (dot_S512x512_S5504x512_S512x5504_1_1_0_0_n_n.rhsIdx i k 0).val = (i 1).val := by
  unfold DotDims.rhsIdx
  rw [dif_neg (show ¬(0 : Fin S5504x512.rank) ∈ dot_S512x512_S5504x512_S512x5504_1_1_0_0_n_n.rhsBatch by decide), dif_pos (show (0 : Fin S5504x512.rank) ∈ dot_S512x512_S5504x512_S512x5504_1_1_0_0_n_n.rhsNonContracting by decide)]
  rfl
theorem rhs1 (i : S512x5504.Idx) (k : dot_S512x512_S5504x512_S512x5504_1_1_0_0_n_n.contr.Idx) :
    (dot_S512x512_S5504x512_S512x5504_1_1_0_0_n_n.rhsIdx i k 1).val = (k ⟨0, by decide⟩).val :=
  dot_S512x512_S5504x512_S512x5504_1_1_0_0_n_n.rhsIdx_val_of_single rfl i k

/-- Every point adds to what the block held the product of its x block with its weight block, the weight block
    laid rows-by-contraction: entry `(p, q)` gains `∑ k, x p k * w q k`. -/
theorem pay2_apply (acc : FVec Ideal S512x5504 .f32) (x : FVec Ideal S512x512 .bf16) (w : FVec Ideal S5504x512 .bf16)
    (p : Fin 512) (q : Fin 5504) :
    k0_pay2 (F := Ideal) acc x w (ix2 p q) = acc (ix2 p q) + ∑ k : Fin 512, x (ix2 p k) * w (ix2 q k) := by
  unfold k0_pay2
  simp only [shapeCast_self]
  show acc (ix2 p q) + FloatOps.matmul dot_S512x512_S5504x512_S512x5504_1_1_0_0_n_n none x w (constant S512x5504 .f32 0x00000000#32) (ix2 p q) = _
  refine congrArg (acc (ix2 p q) + ·) ?_
  refine (Ideal.matmul_constant_zero_apply dot_S512x512_S5504x512_S512x5504_1_1_0_0_n_n none x w (ix2 p q)).trans ?_
  rw [← Equiv.sum_comp (contrEquiv1 dot_S512x512_S5504x512_S512x5504_1_1_0_0_n_n 512 rfl rfl).symm]
  refine Finset.sum_congr rfl fun k _ => ?_
  have hk := contrEquiv1_symm_val dot_S512x512_S5504x512_S512x5504_1_1_0_0_n_n 512 rfl rfl k
  have el : dot_S512x512_S5504x512_S512x5504_1_1_0_0_n_n.lhsIdx (ix2 p q) ((contrEquiv1 dot_S512x512_S5504x512_S512x5504_1_1_0_0_n_n 512 rfl rfl).symm k) = ix2 p k := funext fun a => Fin.ext (by
    match a with
    | ⟨0, _⟩ => exact lhs0 _ _
    | ⟨1, _⟩ => exact (lhs1 _ _).trans hk)
  have er : dot_S512x512_S5504x512_S512x5504_1_1_0_0_n_n.rhsIdx (ix2 p q) ((contrEquiv1 dot_S512x512_S5504x512_S512x5504_1_1_0_0_n_n 512 rfl rfl).symm k) = ix2 q k := funext fun a => Fin.ext (by
    match a with
    | ⟨0, _⟩ => exact rhs0 _ _
    | ⟨1, _⟩ => exact (rhs1 _ _).trans hk)
  rw [el, er]

end Cert.KernelIdeal.Linear

end
-- ==== Proof.Spec.lean ====
/-
  The layer both programs compute, on the extended reals: entry `(r, c)` of the result is the bias at `c` plus the
  sum over `k` of `x r k` times the ternarized weight at `(c, k)` — the weight is laid out rows-by-inputs, so the
  product is against its transpose. Stated once over literal shapes, with no program imported.

  Beside it, arrays read at natural-number coordinates (zero outside the array): block arithmetic — row
  `512 * a + p` of a block is row `r` of the array — is then arithmetic on naturals.
-/
import Idealize.ShloMosaic.Lib.ValueIdx

noncomputable section

open Idealize.ShloMosaic Idealize.ShloMosaic.ValueIdx
open scoped BigOperators

namespace Cert.Dense

/-- A matrix read at natural coordinates. -/
def at2 {n0 n1 : ℕ} (a : (⟨2, ![n0, n1]⟩ : Shape).Idx → EReal) (r k : ℕ) : EReal :=
  if h : r < n0 ∧ k < n1 then a (ix2 ⟨r, h.1⟩ ⟨k, h.2⟩) else 0

/-- A vector read at a natural coordinate. -/
def at1 {n : ℕ} (a : (⟨1, ![n]⟩ : Shape).Idx → EReal) (j : ℕ) : EReal :=
  if h : j < n then a (ix1 ⟨j, h⟩) else 0

theorem at2_of_idx {n0 n1 : ℕ} (a : (⟨2, ![n0, n1]⟩ : Shape).Idx → EReal) (i : (⟨2, ![n0, n1]⟩ : Shape).Idx)
    (r k : ℕ) (hr : (i 0).val = r) (hk : (i 1).val = k) : a i = at2 a r k := by
  subst hr; subst hk
  unfold at2
  rw [dif_pos ⟨idx2_lt0 i, idx2_lt1 i⟩]
  exact congrArg a (eq_ix2 i)

theorem at1_of_idx {n : ℕ} (a : (⟨1, ![n]⟩ : Shape).Idx → EReal) (i : (⟨1, ![n]⟩ : Shape).Idx)
    (j : ℕ) (hj : (i 0).val = j) : a i = at1 a j := by
  subst hj
  have hlt : (i 0).val < n := (i 0).isLt
  unfold at1
  rw [dif_pos hlt]
  exact congrArg a (eq_ix1 i)

/-- The dense layer: `b c + ∑ k, x r k * s c k`, with `s` the (already ternarized) weight. -/
def dense (x : (⟨2, ![8192, 4096]⟩ : Shape).Idx → EReal) (s : (⟨2, ![11008, 4096]⟩ : Shape).Idx → EReal)
    (b : (⟨1, ![11008]⟩ : Shape).Idx → EReal) : (⟨2, ![8192, 11008]⟩ : Shape).Idx → EReal :=
  fun i => at1 b (i 1).val + ∑ k : Fin 4096, at2 x (i 0).val k.val * at2 s (i 1).val k.val

end Cert.Dense

end
-- ==== Proof.LibBlockSum.lean ====
/-
  A sum over `B * A` consecutive terms regrouped as `A` consecutive blocks of `B` terms each, in any commutative
  additive monoid: nothing but associativity of the sum is used, so the law holds on the extended reals with
  their infinities. It is what identifies a contraction accumulated block by block along its axis with the
  contraction done at once.
-/
import Mathlib.Algebra.BigOperators.Intervals
import Mathlib.Algebra.BigOperators.Fin

open scoped BigOperators

namespace Cert.BlockSum

/-- The first `B * A` terms of a sequence, summed block by block: block `s` holds the terms `B * s, …, B * s + B - 1`. -/
theorem sum_range_blocks {β : Type*} [AddCommMonoid β] (f : ℕ → β) (B : ℕ) :
    ∀ A : ℕ, ∑ k ∈ Finset.range (B * A), f k = ∑ s ∈ Finset.range A, ∑ r ∈ Finset.range B, f (B * s + r)
  | 0 => by simp
  | A + 1 => by
    rw [Nat.mul_succ, Finset.sum_range_add, sum_range_blocks f B A, Finset.sum_range_succ]

/-- The same with the terms indexed by `Fin n`, `n = B * A`, and each block's terms by `Fin B`. -/
theorem sum_fin_blocks {β : Type*} [AddCommMonoid β] (f : ℕ → β) (A B n : ℕ) (h : n = B * A) :
    ∑ k : Fin n, f k.val = ∑ s ∈ Finset.range A, ∑ r : Fin B, f (B * s + r.val) := by
  subst h
  rw [Fin.sum_univ_eq_sum_range, sum_range_blocks]
  refine Finset.sum_congr rfl fun s _ => ?_
  rw [Fin.sum_univ_eq_sum_range (fun r => f (B * s + r))]

end Cert.BlockSum
-- ==== Proof.KernelValue.lean ====
/-
  The kernel's result array, read at an entry. A run of eight consecutive grid points shares one output block: its
  first point leaves the bias plus its addend, each later point adds its own addend, and the last writes the block
  back. The addend of point `n` at entry `(p, q)` of the block is the part of the contraction `∑ k, x r k * sign (w c k)`
  with `k` in the point's block of 512 inputs. So the block ends holding the bias plus eight partial sums, which
  regroup (associativity of the sum only; no finiteness is needed) into the one sum over all 4096 inputs: the dense layer.
-/
import proofs.«147107_j87247965651268_2_alg».proof.Proof.KernelBlocks
import proofs.«147107_j87247965651268_2_alg».proof.Proof.Spec
import proofs.«147107_j87247965651268_2_alg».proof.Proof.LibBlockSum

noncomputable section

open Idealize.ShloMosaic Idealize.ShloMosaic.TcCoe Idealize.SL.Sem Idealize.ShloMosaic.ValueIdx
open scoped BigOperators

namespace Cert.KernelIdeal.Linear

open Cert.KernelIdeal Cert.KernelIdeal.Gen Cert.Dense

variable (m : (ℓ : Loc nD τ sig) → Buf (Elt Ideal) ℓ)

/-- The ternarized weight: the sign of each entry. -/
def sgn (c : Dev nD) : S11008x4096.Idx → EReal := fun j => Ideal.sign (m ((c : Thread nD τ).loc main_arg1) j)

/-- What point `n` adds to entry `y` of its output block: the part of the contraction that lies in the point's
    contraction block, `k = 512 * (n % 8) + kk`. -/
def addend (c : Dev nD) (n : ℕ) (y : S512x5504.Idx) : EReal :=
  ∑ kk : Fin 512, at2 (m ((c : Thread nD τ).loc main_arg0)) (512 * (n / 16) + (y 0).val) (512 * (n % 8) + kk.val)
    * at2 (sgn m c) (5504 * (n / 8 % 2) + (y 1).val) (512 * (n % 8) + kk.val)

/-- The bias under entry `y` of the output block of the run that starts at point `b`. -/
def biasAt (c : Dev nD) (b : ℕ) (y : S512x5504.Idx) : EReal :=
  at1 (m ((c : Thread nD τ).loc main_arg2)) (5504 * (b / 8 % 2) + (y 1).val)

/-- The x block and the weight block of a point, as arrays of extended reals. -/
abbrev xb (c : Dev nD) (t : Fin cfg0.N) : S512x512.Idx → EReal := iblk m c 0 t
abbrev wb (c : Dev nD) (t : Fin cfg0.N) : S5504x512.Idx → EReal := iblk m c 1 t

theorem prod_apply (c : Dev nD) (n : ℕ) (h : n < cfg0.N) (p : Fin 512) (q : Fin 5504) :
    (∑ kk : Fin 512, xb m c ⟨n, h⟩ (ix2 p kk) * wb m c ⟨n, h⟩ (ix2 q kk)) = addend m c n (ix2 p q) := by
  have hN : n < 256 := lt_of_lt_of_eq h N_0
  unfold addend
  refine Finset.sum_congr rfl fun kk _ => ?_
  have hx : 512 * (n / 16) + p.val < 8192 ∧ 512 * (n % 8) + kk.val < 4096 := by
    have := p.isLt; have := kk.isLt; omega
  have hw : 5504 * (n / 8 % 2) + q.val < 11008 ∧ 512 * (n % 8) + kk.val < 4096 := by
    have := q.isLt; have := kk.isLt; omega
  have ex : xb m c ⟨n, h⟩ (ix2 p kk) = m ((c : Thread nD τ).loc main_arg0) (ix2 ⟨512 * (n / 16) + p.val, hx.1⟩ ⟨512 * (n % 8) + kk.val, hx.2⟩) :=
    xblk_apply m c ⟨n, h⟩ (ix2 p kk) (ix2 ⟨512 * (n / 16) + p.val, hx.1⟩ ⟨512 * (n % 8) + kk.val, hx.2⟩) rfl rfl
  have ew : wb m c ⟨n, h⟩ (ix2 q kk) = sgn m c (ix2 ⟨5504 * (n / 8 % 2) + q.val, hw.1⟩ ⟨512 * (n % 8) + kk.val, hw.2⟩) :=
    wblk_apply m c ⟨n, h⟩ (ix2 q kk) (ix2 ⟨5504 * (n / 8 % 2) + q.val, hw.1⟩ ⟨512 * (n % 8) + kk.val, hw.2⟩) rfl rfl
  refine congrArg₂ (· * ·) (ex.trans ?_) (ew.trans ?_)
  · exact at2_of_idx _ _ _ _ rfl rfl
  · exact at2_of_idx _ _ _ _ rfl rfl

/-- A later point of a run adds its addend to what the block held. -/
theorem step_apply (c : Dev nD) (n : ℕ) (h : n < cfg0.N) (acc : FVec Ideal S512x5504 .f32) (y : S512x5504.Idx) :
    Value.step3 m c n h acc y = acc y + addend m c n y := by
  obtain ⟨p, q, rfl⟩ : ∃ (p : Fin 512) (q : Fin 5504), y = ix2 p q := ⟨y 0, y 1, eq_ix2 y⟩
  unfold Value.step3
  refine (pay2_apply acc (iblk m c 0 ⟨n, h⟩) (iblk m c 1 ⟨n, h⟩) p q).trans ?_
  exact congrArg (acc (ix2 p q) + ·) (prod_apply m c n h p q)

/-- The first point of a run leaves the bias plus its addend. -/
theorem reset_apply (c : Dev nD) (n : ℕ) (h : n < cfg0.N) (y : S512x5504.Idx) :
    Value.reset3 m c n h y = biasAt m c n y + addend m c n y := by
  have hN : n < 256 := lt_of_lt_of_eq h N_0
  obtain ⟨p, q, rfl⟩ : ∃ (p : Fin 512) (q : Fin 5504), y = ix2 p q := ⟨y 0, y 1, eq_ix2 y⟩
  unfold Value.reset3
  refine (pay2_apply (k0_pay1 (iblk m c 2 ⟨n, h⟩)) (iblk m c 0 ⟨n, h⟩) (iblk m c 1 ⟨n, h⟩) p q).trans ?_
  rw [prod_apply m c n h p q]
  refine congrArg (· + addend m c n (ix2 p q)) ?_
  refine (pay1_apply (iblk m c 2 ⟨n, h⟩) p q).trans ?_
  have hb : 5504 * (n / 8 % 2) + q.val < 11008 := by have := q.isLt; omega
  refine (bblk_apply m c ⟨n, h⟩ q ⟨5504 * (n / 8 % 2) + q.val, hb⟩ rfl).trans ?_
  show _ = at1 _ (5504 * (n / 8 % 2) + q.val)
  unfold at1
  rw [dif_pos hb]

/-- The array the kernel leaves is the dense layer of x, the sign of the weight, and the bias: the eight addends of a
    run are the eight blocks of 512 consecutive terms of the contraction. -/
theorem G3_eq (c : Dev nD) :
    Value.G3 m c = dense (m ((c : Thread nD τ).loc main_arg0)) (sgn m c) (m ((c : Thread nD τ).loc main_arg2)) := by
  funext i
  have h0 : (i 0).val < 8192 := (i 0).isLt
  have h1 : (i 1).val < 11008 := (i 1).isLt
  have hN : cfg0.N = 256 := N_0
  have hrun : Value.run3Of i = 2 * ((i 0).val / 512) + (i 1).val / 5504 := by
    show 2 * ((i 0).val / 512 - 0) + 1 * ((i 1).val / 5504 - 0) = _
    omega
  have hl0 : (Value.loc3Of i 0).val = (i 0).val % 512 := rfl
  have hl1 : (Value.loc3Of i 1).val = (i 1).val % 5504 := rfl
  unfold Value.G3
  rw [dif_pos (by rw [hN, hrun]; omega)]
  rw [Pipeline.accAt_add_apply (Value.reset3 m c) (Value.step3 m c) (biasAt m c (8 * Value.run3Of i)) (addend m c)
    (8 * Value.run3Of i) 7 (fun h y => reset_apply m c _ h y) (fun n h acc y _ _ => step_apply m c n h acc y) 7 le_rfl _ (Value.loc3Of i)]
  unfold dense
  generalize Value.run3Of i = run at hrun
  refine congrArg₂ (· + ·) ?_ ?_
  · unfold biasAt
    rw [hl1]
    exact congrArg (at1 _) (by omega)
  · rw [Cert.BlockSum.sum_fin_blocks (fun k => at2 (m ((c : Thread nD τ).loc main_arg0)) (i 0).val k * at2 (sgn m c) (i 1).val k) 8 512 4096 rfl]
    refine Finset.sum_congr rfl fun s hs => ?_
    have hs8 : s < 8 := Finset.mem_range.mp hs
    unfold addend
    refine Finset.sum_congr rfl fun kk _ => ?_
    rw [hl0, hl1]
    have hk := kk.isLt
    rw [show 512 * ((8 * run + s) / 16) + (i 0).val % 512 = (i 0).val from by omega,
      show 512 * ((8 * run + s) % 8) + kk.val = 512 * s + kk.val from by omega,
      show 5504 * ((8 * run + s) / 8 % 2) + (i 1).val % 5504 = (i 1).val from by omega]

end Cert.KernelIdeal.Linear

end
-- ==== Proof.RefRead.lean ====
/-
  The reference, read at an entry: the sign of the weight, transposed, contracted with x over all 4096 inputs at
  once, and the bias (spread over the rows) added last. At entry `(r, c)` that is `(∑ k, x r k * sign (w c k)) + b c`:
  the dense layer, its two summands in the other order.
-/
import proofs.«147107_j87247965651268_2_alg».proof.Proof.Gen.ReferenceIdeal.Read
import proofs.«147107_j87247965651268_2_alg».proof.Proof.Spec

noncomputable section

open Idealize.ShloMosaic Idealize.ShloMosaic.TcCoe Idealize.SL.Sem Idealize.ShloMosaic.ValueIdx
open scoped BigOperators

namespace Cert.ReferenceIdeal.Linear

open Cert.ReferenceIdeal Cert.ReferenceIdeal.Gen Cert.ReferenceIdeal.Read Cert.Dense

/-- The reference's result is the dense layer of x, the sign of the weight, and the bias. -/
theorem ref_eq (x0 : (⟨S8192x4096, .f32⟩ : BufTy).Contents (Elt Ideal)) (x1 : (⟨S11008x4096, .f32⟩ : BufTy).Contents (Elt Ideal))
    (x2 : (⟨S11008, .f32⟩ : BufTy).Contents (Elt Ideal)) :
    val_main_v5 (F := Ideal) x0 x1 x2 = dense x0 (fun j => Ideal.sign (x1 j)) x2 := by
  funext i
  rw [val_main_v5_apply, val_main_v2_apply, val_main_v4_apply, val_main_v3_apply]
  unfold dense
  show (∑ k : Fin 4096, x0 (lidx_main_v2 i k) * val_main_v1 (F := Ideal) x1 (ridx_main_v2 i k)) + x2 (idx_main_v3 (idx_main_v4 i)) = _
  rw [add_comm]
  refine congrArg₂ (· + ·) ?_ (Finset.sum_congr rfl fun k _ => ?_)
  · exact at1_of_idx x2 _ _ rfl
  · rw [val_main_v1_apply, val_main_v0_apply]
    refine congrArg₂ (· * ·) (at2_of_idx x0 _ _ _ rfl rfl) ?_
    show Ideal.sign (x1 (idx_main_v1 (ridx_main_v2 i k))) = _
    exact at2_of_idx (fun j => Ideal.sign (x1 j)) (idx_main_v1 (ridx_main_v2 i k)) _ _ rfl rfl

end Cert.ReferenceIdeal.Linear

end
-- ==== Proof.lean ====
/-
  A dense layer with a ternarized weight: `out r c = b c + ∑ k, x r k * sign (w c k)` over x [8192, 4096],
  w [11008, 4096], b [11008]. The kernel tiles the output into 512 × 5504 blocks and walks the contraction in eight
  blocks of 512, starting each output block from the bias and adding one partial product per grid point; the
  reference transposes the sign of the weight, contracts all 4096 inputs at once and adds the bias last. At the ideal
  values rounding to bf16 is the identity and both are that one function of the arguments: the kernel's eight partial
  sums regroup into the reference's single sum, and the two summands commute. Only commutativity and associativity of
  addition on the extended reals are used, so the finiteness of the inputs is never opened.

  Each frame is the program's own run with the result dropped; the idealization rewrote nothing, so there is nothing
  to preserve beyond `True`.
-/
import proofs.«147107_j87247965651268_2_alg».proof.Defs
import proofs.«147107_j87247965651268_2_alg».proof.Proof.Gen.Kernel.Frame
import proofs.«147107_j87247965651268_2_alg».proof.Proof.Gen.KernelIdeal.Value
import proofs.«147107_j87247965651268_2_alg».proof.Proof.Gen.Pre_finite_inputs
import proofs.«147107_j87247965651268_2_alg».proof.Proof.Gen.ReferenceIdeal.Run
import proofs.«147107_j87247965651268_2_alg».proof.Proof.KernelValue
import proofs.«147107_j87247965651268_2_alg».proof.Proof.RefRead
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Run from memories that agree on x, w and b, the kernel ends with the dense layer of its arguments in its result
    array and the reference with the dense layer of its own, which are the same arguments. -/
theorem algebraic_KernelIdeal_ReferenceIdeal : algebraic_KernelIdeal_ReferenceIdeal := by
  intro m ρ m' ρ' _ hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  simp only [hagree c]
  rw [Cert.ReferenceIdeal.Read.val_main_v5_eq, Cert.ReferenceIdeal.Linear.ref_eq, Cert.KernelIdeal.Linear.G3_eq]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
